-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S768x384 : Shape := ⟨2, ![768, 384]⟩
abbrev S768 : Shape := ⟨1, ![768]⟩
abbrev S768x256 : Shape := ⟨2, ![768, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_

variable [Facts]

def fn_part2 {F : FTy → Type} [FloatOps F] (main_arg9 : FVec F S768 .f32) (main_arg10 : FVec F S768x256 .f32) (main_arg11 : FVec F S768 .f32) (main_v33 : IVec S_ 1) : IVec S_ 1 :=
  let main_v34 : FVec F S768 .f32 := Host.absf main_arg9
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x256 .f32 := Host.absf main_arg10
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg11
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg6 : FVec F S128x256 .f32) (main_arg7 : FVec F S128 .f32) (main_arg8 : FVec F S768x384 .f32) (main_arg9 : FVec F S768 .f32) (main_arg10 : FVec F S768x256 .f32) (main_arg11 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S768x384 .f32 := Host.absf main_arg8
  let main_cst_10 : FVec F S_ .f32 := constant S_ .f32 0x7F800000#32
  let main_v30 : FVec F S768x384 .f32 := broadcastInDim S768x384 ![] bcast_S_S768x384 main_cst_10
  let main_v31 : IVec S768x384 1 := cmpf .olt main_v29 main_v30
  let main_c_11 : IVec S_ 1 := constantI S_ 1 1#1
  let main_v32 : IVec S_ 1 := (fun x v => Host.reduce IntOp.andi x v reducesTo_S768x384_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : FVec F S50000x256 .f32) (main_arg2 : IVec S800000 32) (main_arg3 : IVec S800000 32) (main_arg4 : FVec F S256x256 .f32) (main_arg5 : FVec F S256 .f32) (main_arg6 : FVec F S128x256 .f32) (main_arg7 : FVec F S128 .f32) (main_arg8 : FVec F S768x384 .f32) (main_arg9 : FVec F S768 .f32) (main_arg10 : FVec F S768x256 .f32) (main_arg11 : FVec F S768 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S768x384 : Shape := ⟨2, ![768, 384]⟩
abbrev S768 : Shape := ⟨1, ![768]⟩
abbrev S768x256 : Shape := ⟨2, ![768, 256]⟩
abbrev S50000x128 : Shape := ⟨2, ![50000, 128]⟩
abbrev S2000x256 : Shape := ⟨2, ![2000, 256]⟩
abbrev S2000x128 : Shape := ⟨2, ![2000, 128]⟩
abbrev S1x256 : Shape := ⟨2, ![1, 256]⟩
abbrev S256x128 : Shape := ⟨2, ![256, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S768x128 : Shape := ⟨2, ![768, 128]⟩
abbrev S1000x256 : Shape := ⟨2, ![1000, 256]⟩
abbrev S1000x128 : Shape := ⟨2, ![1000, 128]⟩
abbrev S256x768 : Shape := ⟨2, ![256, 768]⟩
abbrev S1000x768 : Shape := ⟨2, ![1000, 768]⟩
abbrev S128x768 : Shape := ⟨2, ![128, 768]⟩
abbrev S1x768 : Shape := ⟨2, ![1, 768]⟩

abbrev nBuf : Space → Nat
  | .hbm => 41
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S768x384, .f32⟩
  | .hbm, ⟨9, _⟩ => ⟨S768, .f32⟩
  | .hbm, ⟨10, _⟩ => ⟨S768x256, .f32⟩
  | .hbm, ⟨11, _⟩ => ⟨S768, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S768x256, .f32⟩
  | .hbm, ⟨39, _⟩ => ⟨S768x128, .f32⟩
  | .hbm, ⟨40, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S128x256, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S1000x256, .f32⟩
  | .local _ .vmem, ⟨9, _⟩ => ⟨S1000x256, .f32⟩
  | .local _ .vmem, ⟨10, _⟩ => ⟨S1000x128, .f32⟩
  | .local _ .vmem, ⟨11, _⟩ => ⟨S1000x128, .f32⟩
  | .local _ .vmem, ⟨12, _⟩ => ⟨S1000x256, .f32⟩
  | .local _ .vmem, ⟨13, _⟩ => ⟨S1000x256, .f32⟩
  | .local _ .vmem, ⟨14, _⟩ => ⟨S768x256, .f32⟩
  | .local _ .vmem, ⟨15, _⟩ => ⟨S768x128, .f32⟩
  | .local _ .vmem, ⟨16, _⟩ => ⟨S768, .f32⟩
  | .local _ .vmem, ⟨17, _⟩ => ⟨S768x256, .f32⟩
  | .local _ .vmem, ⟨18, _⟩ => ⟨S768, .f32⟩
  | .local _ .vmem, ⟨19, _⟩ => ⟨S1000x256, .f32⟩
  | .local _ .vmem, ⟨20, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S768x384_S768x256_0_0 : S768x384.Slices ![0, 0] S768x256
  slices_S768x384_S768x128_0_256 : S768x384.Slices ![0, 256] S768x128
  inb_S1000x256_S1000x256_0_0 : ∀ a, (![0, 0] : Fin 2 → Nat) a + S1000x256.size a ≤ S1000x256.size a
  h_S1000x256 : 0 < S1000x256.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768x128_S768x128_0_0 : ∀ a, (![0, 0] : Fin 2 → Nat) a + S768x128.size a ≤ S768x128.size a
  h_S768x128 : 0 < S768x128.numel
  shapeCasts_S768x128_S768x128 : S768x128.ShapeCasts S768x128
  transposes_S768x256_p1_0_S256x768 : S768x256.Transposes [1, 0] S256x768
  transposes_S768x128_p1_0_S128x768 : S768x128.Transposes [1, 0] S128x768
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x256_S256x768_S1000x768_1_0_0_1_n_n_wf : DotDims.WF S1000x256 S256x768 S1000x768 [1] [0] [0] [1] [] []
  dot_S1000x128_S128x768_S1000x768_1_0_0_1_n_n_wf : DotDims.WF S1000x128 S128x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x256.size a ≤ S768x256.size a
  hwx1_3 : ∀ i : grid1.Coords, EltTy.bits .f32 = 32 ∨ (Rect.block (s := S768x256) S768x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x128.size a ≤ S768x128.size a
  hwx1_4 : ∀ i : grid1.Coords, EltTy.bits .f32 = 32 ∨ (Rect.block (s := S768x128) S768x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S768.size a ≤ S768.size a
  hwx1_5 : ∀ i : grid1.Coords, EltTy.bits .f32 = 32 ∨ (Rect.block (s := S768) S768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x256.size a ≤ S768x256.size a
  hwx1_6 : ∀ i : grid1.Coords, EltTy.bits .f32 = 32 ∨ (Rect.block (s := S768x256) S768x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S768.size a ≤ S768.size a
  hwx1_7 : ∀ i : grid1.Coords, EltTy.bits .f32 = 32 ∨ (Rect.block (s := S768) S768.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x256.size a ≤ S50000x256.size a
  hwx1_8 : ∀ i : grid1.Coords, EltTy.bits .f32 = 32 ∨ (Rect.block (s := S50000x256) S1000x256.size (cc1_transform_8 i) (hinb1_8 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf
def dot_S1000x128_S128x768_S1000x768_1_0_0_1_n_n : DotDims S1000x128 S128x768 S1000x768 where
  lhsContracting := [1]
  rhsContracting := [0]
  lhsNonContracting := [0]
  rhsNonContracting := [1]
  lhsBatch := []
  rhsBatch := []
  wf := dot_S1000x128_S128x768_S1000x768_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S768x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S768x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S768x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S768x384 : Shape := ⟨2, ![768, 384]⟩
abbrev S768 : Shape := ⟨1, ![768]⟩
abbrev S768x256 : Shape := ⟨2, ![768, 256]⟩
abbrev S1x256 : Shape := ⟨2, ![1, 256]⟩
abbrev S_ : Shape := ⟨0, ![]⟩
abbrev S256x128 : Shape := ⟨2, ![256, 128]⟩
abbrev S50000x128 : Shape := ⟨2, ![50000, 128]⟩
abbrev S1x128 : Shape := ⟨2, ![1, 128]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x384 : Shape := ⟨2, ![50000, 384]⟩
abbrev S384x768 : Shape := ⟨2, ![384, 768]⟩
abbrev S50000x768 : Shape := ⟨2, ![50000, 768]⟩
abbrev S1x768 : Shape := ⟨2, ![1, 768]⟩
abbrev S256x768 : Shape := ⟨2, ![256, 768]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S768x384, .f32⟩
  | .hbm, ⟨9, _⟩ => ⟨S768, .f32⟩
  | .hbm, ⟨10, _⟩ => ⟨S768x256, .f32⟩
  | .hbm, ⟨11, _⟩ => ⟨S768, .f32⟩
  | .hbm, ⟨12, _⟩ => ⟨S256x256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S_, .f32⟩
  | .hbm, ⟨18, _⟩ => ⟨S50000x256, .f32⟩
  | .hbm, ⟨19, _⟩ => ⟨S50000x256, .f32⟩
  | .hbm, ⟨20, _⟩ => ⟨S256x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x384, .f32⟩
  | .hbm, ⟨54, _⟩ => ⟨S384x768, .f32⟩
  | .hbm, ⟨55, _⟩ => ⟨S50000x768, .f32⟩
  | .hbm, ⟨56, _⟩ => ⟨S1x768, .f32⟩
  | .hbm, ⟨57, _⟩ => ⟨S50000x768, .f32⟩
  | .hbm, ⟨58, _⟩ => ⟨S50000x768, .f32⟩
  | .hbm, ⟨59, _⟩ => ⟨S256x768, .f32⟩
  | .hbm, ⟨60, _⟩ => ⟨S50000x768, .f32⟩
  | .hbm, ⟨61, _⟩ => ⟨S1x768, .f32⟩
  | .hbm, ⟨62, _⟩ => ⟨S50000x768, .f32⟩
  | .hbm, ⟨63, _⟩ => ⟨S50000x768, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_4 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x256_S50000x128_S50000x384_d1 : Shape.Concatenates [S50000x256, S50000x128] S50000x384 1
  transposes_S768x384_S384x768_1_0 : S768x384.Transposes [1, 0] S384x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  transposes_S768x256_S256x768_1_0 : S768x256.Transposes [1, 0] S256x768
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x384_S384x768_S50000x768_1_0_0_1_n_n_wf : DotDims.WF S50000x384 S384x768 S50000x768 [1] [0] [0] [1] [] []
  dot_S50000x256_S256x768_S50000x768_1_0_0_1_n_n_wf : DotDims.WF S50000x256 S256x768 S50000x768 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x768_S50000x768_1_0_0_1_n_n : DotDims S50000x384 S384x768 S50000x768 where
  lhsContracting := [1]
  rhsContracting := [0]
  lhsNonContracting := [0]
  rhsNonContracting := [1]
  lhsBatch := []
  rhsBatch := []
  wf := dot_S50000x384_S384x768_S50000x768_1_0_0_1_n_n_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf

class Facts : Prop extends Facts₀ where

variable [Facts]
-- ==== Proof.KernelRun.lean ====
/-
  The idealized kernel's run with its result named.

  @main is three segments: the encoder's grid of 25 blocks, a stretch of host operations (the gather of messages along
  the edges, the two scatter-sums, the mean, the two column slices of W_ih), and the GRU's grid of 50 blocks.  Every
  weakly fair execution ends with each unscoped buffer at the contents the last segment leaves; here that fact is kept
  for the result buffer too, beside the twelve argument arrays, which no segment writes.
-/
import proofs.«123180_j29703993819530_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last grid's
    write-backs leave in it and the arguments as launched. -/
theorem run_result : θ_run defs (onTc (τ := τ) (main (F := F))) ⟨m, fun _ => 0, ρ⟩ (fun r => ∀ c : Dev nD,
      r.2.mem ((c.tc : Thread nD τ).loc main_v22) = W3 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v22 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end Cert.KernelIdeal.Whole

end
-- ==== Proof.Products.lean ====
/-
  A matrix product into a zero accumulator, read at an entry: for each of the four products the two kernel bodies
  take, entry (p, c) of A·B is Σ_k A[p,k]·B[k,c] on the extended reals — the contraction index re-indexed by its one
  coordinate, the operands' indices at (p, c) and k computed from the product's dimension numbers.
-/
import proofs.«123180_j29703993819530_1_alg».proof.Proof.Gen.KernelIdeal
import Idealize.ShloMosaic.PureOps.Ideal.Laws
import Idealize.ShloMosaic.Lib.ValueIdx

noncomputable section

namespace Cert.KernelIdeal.Prod

open Idealize.ShloMosaic Idealize.ShloMosaic.ValueIdx Cert.KernelIdeal

/-! ## x-block [2000,256] times W1ᵀ [256,256] -/

theorem encA_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem encA_l1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem encA_r0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem encA_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, c) of the product into a zero accumulator is the sum over the 256 contracted indices. -/
theorem encA_apply {φ₁ φ₂ : FTy} (A : FVec Ideal S2000x256 φ₁) (B : FVec Ideal S256x256 φ₂) (p : Fin 2000) (c : Fin 256) :
    matmul dot_S2000x256_S256x256_S2000x256_1_0_0_1_n_n none A B (constant S2000x256 .f32 0x00000000#32) (ix2 p c)
      = ∑ k : Fin 256, A (ix2 p k) * B (ix2 k c) := by
  show FloatOps.matmul dot_S2000x256_S256x256_S2000x256_1_0_0_1_n_n none A B (constant S2000x256 .f32 0x00000000#32) (ix2 p c) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p c) ((contrEquiv1 dot_S2000x256_S256x256_S2000x256_1_0_0_1_n_n 256 rfl rfl).symm k) = ix2 p k := funext fun a => Fin.ext (by
    match a with
    | ⟨0, _⟩ => exact encA_l0 _ _
    | ⟨1, _⟩ => exact (encA_l1 _ _).trans hk)
  have er : dot_S2000x256_S256x256_S2000x256_1_0_0_1_n_n.rhsIdx (ix2 p c) ((contrEquiv1 dot_S2000x256_S256x256_S2000x256_1_0_0_1_n_n 256 rfl rfl).symm k) = ix2 k c := funext fun a => Fin.ext (by
    match a with
    | ⟨0, _⟩ => exact (encA_r0 _ _).trans hk
    | ⟨1, _⟩ => exact encA_r1 _ _)
  rw [el, er]

/-! ## hidden block [2000,256] times W2ᵀ [256,128] -/

theorem encB_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem encB_l1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem encB_r0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem encB_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, c) of the product into a zero accumulator is the sum over the 256 contracted indices. -/
theorem encB_apply {φ₁ φ₂ : FTy} (A : FVec Ideal S2000x256 φ₁) (B : FVec Ideal S256x128 φ₂) (p : Fin 2000) (c : Fin 128) :
    matmul dot_S2000x256_S256x128_S2000x128_1_0_0_1_n_n none A B (constant S2000x128 .f32 0x00000000#32) (ix2 p c)
      = ∑ k : Fin 256, A (ix2 p k) * B (ix2 k c) := by
  show FloatOps.matmul dot_S2000x256_S256x128_S2000x128_1_0_0_1_n_n none A B (constant S2000x128 .f32 0x00000000#32) (ix2 p c) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p c) ((contrEquiv1 dot_S2000x256_S256x128_S2000x128_1_0_0_1_n_n 256 rfl rfl).symm k) = ix2 p k := funext fun a => Fin.ext (by
    match a with
    | ⟨0, _⟩ => exact encB_l0 _ _
    | ⟨1, _⟩ => exact (encB_l1 _ _).trans hk)
  have er : dot_S2000x256_S256x128_S2000x128_1_0_0_1_n_n.rhsIdx (ix2 p c) ((contrEquiv1 dot_S2000x256_S256x128_S2000x128_1_0_0_1_n_n 256 rfl rfl).symm k) = ix2 k c := funext fun a => Fin.ext (by
    match a with
    | ⟨0, _⟩ => exact (encB_r0 _ _).trans hk
    | ⟨1, _⟩ => exact encB_r1 _ _)
  rw [el, er]

/-! ## a [1000,256] block times a transposed [768,256] weight -/

theorem gruX_l0 (i : S1000x768.Idx) (q : dot_S1000x256_S256x768_S1000x768_1_0_0_1_n_n.contr.Idx) :
    (dot_S1000x256_S256x768_S1000x768_1_0_0_1_n_n.lhsIdx i q 0).val = (i 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
theorem gruX_l1 (i : S1000x768.Idx) (q : dot_S1000x256_S256x768_S1000x768_1_0_0_1_n_n.contr.Idx) :
    (dot_S1000x256_S256x768_S1000x768_1_0_0_1_n_n.lhsIdx i q 1).val = (q ⟨0, by decide⟩).val :=
  dot_S1000x256_S256x768_S1000x768_1_0_0_1_n_n.lhsIdx_val_of_single rfl i q
theorem gruX_r0 (i : S1000x768.Idx) (q : dot_S1000x256_S256x768_S1000x768_1_0_0_1_n_n.contr.Idx) :
    (dot_S1000x256_S256x768_S1000x768_1_0_0_1_n_n.rhsIdx i q 0).val = (q ⟨0, by decide⟩).val :=
  dot_S1000x256_S256x768_S1000x768_1_0_0_1_n_n.rhsIdx_val_of_single rfl i q
theorem gruX_r1 (i : S1000x768.Idx) (q : dot_S1000x256_S256x768_S1000x768_1_0_0_1_n_n.contr.Idx) :
    (dot_S1000x256_S256x768_S1000x768_1_0_0_1_n_n.rhsIdx i q 1).val = (i 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- Entry (p, c) of the product into a zero accumulator is the sum over the 256 contracted indices. -/
theorem gruX_apply {φ₁ φ₂ : FTy} (A : FVec Ideal S1000x256 φ₁) (B : FVec Ideal S256x768 φ₂) (p : Fin 1000) (c : Fin 768) :
    matmul dot_S1000x256_S256x768_S1000x768_1_0_0_1_n_n none A B (constant S1000x768 .f32 0x00000000#32) (ix2 p c)
      = ∑ k : Fin 256, A (ix2 p k) * B (ix2 k c) := by
  show FloatOps.matmul dot_S1000x256_S256x768_S1000x768_1_0_0_1_n_n none A B (constant S1000x768 .f32 0x00000000#32) (ix2 p c) = _
  rw [Ideal.matmul_constant_zero_apply, ← Equiv.sum_comp (contrEquiv1 dot_S1000x256_S256x768_S1000x768_1_0_0_1_n_n 256 rfl rfl).symm]
  refine Finset.sum_congr rfl fun k _ => ?_
  have hk := contrEquiv1_symm_val dot_S1000x256_S256x768_S1000x768_1_0_0_1_n_n 256 rfl rfl k
  have el : dot_S1000x256_S256x768_S1000x768_1_0_0_1_n_n.lhsIdx (ix2 p c) ((contrEquiv1 dot_S1000x256_S256x768_S1000x768_1_0_0_1_n_n 256 rfl rfl).symm k) = ix2 p k := funext fun a => Fin.ext (by
    match a with
    | ⟨0, _⟩ => exact gruX_l0 _ _
    | ⟨1, _⟩ => exact (gruX_l1 _ _).trans hk)
  have er : dot_S1000x256_S256x768_S1000x768_1_0_0_1_n_n.rhsIdx (ix2 p c) ((contrEquiv1 dot_S1000x256_S256x768_S1000x768_1_0_0_1_n_n 256 rfl rfl).symm k) = ix2 k c := funext fun a => Fin.ext (by
    match a with
    | ⟨0, _⟩ => exact (gruX_r0 _ _).trans hk
    | ⟨1, _⟩ => exact gruX_r1 _ _)
  rw [el, er]

/-! ## the mailbox block [1000,128] times the transposed [768,128] weight -/

theorem gruY_l0 (i : S1000x768.Idx) (q : dot_S1000x128_S128x768_S1000x768_1_0_0_1_n_n.contr.Idx) :
    (dot_S1000x128_S128x768_S1000x768_1_0_0_1_n_n.lhsIdx i q 0).val = (i 0).val := by
  unfold DotDims.lhsIdx
  rw [dif_neg (show ¬(0 : Fin S1000x128.rank) ∈ dot_S1000x128_S128x768_S1000x768_1_0_0_1_n_n.lhsBatch by decide), dif_pos (show (0 : Fin S1000x128.rank) ∈ dot_S1000x128_S128x768_S1000x768_1_0_0_1_n_n.lhsNonContracting by decide)]
  rfl
theorem gruY_l1 (i : S1000x768.Idx) (q : dot_S1000x128_S128x768_S1000x768_1_0_0_1_n_n.contr.Idx) :
    (dot_S1000x128_S128x768_S1000x768_1_0_0_1_n_n.lhsIdx i q 1).val = (q ⟨0, by decide⟩).val :=
  dot_S1000x128_S128x768_S1000x768_1_0_0_1_n_n.lhsIdx_val_of_single rfl i q
theorem gruY_r0 (i : S1000x768.Idx) (q : dot_S1000x128_S128x768_S1000x768_1_0_0_1_n_n.contr.Idx) :
    (dot_S1000x128_S128x768_S1000x768_1_0_0_1_n_n.rhsIdx i q 0).val = (q ⟨0, by decide⟩).val :=
  dot_S1000x128_S128x768_S1000x768_1_0_0_1_n_n.rhsIdx_val_of_single rfl i q
theorem gruY_r1 (i : S1000x768.Idx) (q : dot_S1000x128_S128x768_S1000x768_1_0_0_1_n_n.contr.Idx) :
    (dot_S1000x128_S128x768_S1000x768_1_0_0_1_n_n.rhsIdx i q 1).val = (i 1).val := by
  unfold DotDims.rhsIdx
  rw [dif_neg (show ¬(1 : Fin S128x768.rank) ∈ dot_S1000x128_S128x768_S1000x768_1_0_0_1_n_n.rhsBatch by decide), dif_pos (show (1 : Fin S128x768.rank) ∈ dot_S1000x128_S128x768_S1000x768_1_0_0_1_n_n.rhsNonContracting by decide)]
  rfl

/-- Entry (p, c) of the product into a zero accumulator is the sum over the 128 contracted indices. -/
theorem gruY_apply {φ₁ φ₂ : FTy} (A : FVec Ideal S1000x128 φ₁) (B : FVec Ideal S128x768 φ₂) (p : Fin 1000) (c : Fin 768) :
    matmul dot_S1000x128_S128x768_S1000x768_1_0_0_1_n_n none A B (constant S1000x768 .f32 0x00000000#32) (ix2 p c)
      = ∑ k : Fin 128, A (ix2 p k) * B (ix2 k c) := by
  show FloatOps.matmul dot_S1000x128_S128x768_S1000x768_1_0_0_1_n_n none A B (constant S1000x768 .f32 0x00000000#32) (ix2 p c) = _
  rw [Ideal.matmul_constant_zero_apply, ← Equiv.sum_comp (contrEquiv1 dot_S1000x128_S128x768_S1000x768_1_0_0_1_n_n 128 rfl rfl).symm]
  refine Finset.sum_congr rfl fun k _ => ?_
  have hk := contrEquiv1_symm_val dot_S1000x128_S128x768_S1000x768_1_0_0_1_n_n 128 rfl rfl k
  have el : dot_S1000x128_S128x768_S1000x768_1_0_0_1_n_n.lhsIdx (ix2 p c) ((contrEquiv1 dot_S1000x128_S128x768_S1000x768_1_0_0_1_n_n 128 rfl rfl).symm k) = ix2 p k := funext fun a => Fin.ext (by
    match a with
    | ⟨0, _⟩ => exact gruY_l0 _ _
    | ⟨1, _⟩ => exact (gruY_l1 _ _).trans hk)
  have er : dot_S1000x128_S128x768_S1000x768_1_0_0_1_n_n.rhsIdx (ix2 p c) ((contrEquiv1 dot_S1000x128_S128x768_S1000x768_1_0_0_1_n_n 128 rfl rfl).symm k) = ix2 k c := funext fun a => Fin.ext (by
    match a with
    | ⟨0, _⟩ => exact (gruY_r0 _ _).trans hk
    | ⟨1, _⟩ => exact gruY_r1 _ _)
  rw [el, er]

end Cert.KernelIdeal.Prod

end
-- ==== Proof.Spec.lean ====
/-
  The mathematics both programs compute, index by index on the extended reals.

  A graph of 50000 nodes carries a feature row x[i] (256) and a hidden state z[i] (256).  Each node is encoded by a
  two-layer perceptron, m[i] = relu(relu(x[i]·W1ᵀ + b1)·W2ᵀ + b2) (128 features).  Messages m[src[e]] are summed at
  dst[e] and divided by max(count, 1): the mailbox mean y[i] (a function of m and of the two edge lists that neither
  program opens here).  A GRU cell then updates z[i] from the input [x[i], y[i]]: with
      gin[i, g] = Σ_{k<256} x[i,k]·W_ih[g,k] + Σ_{k<128} y[i,k]·W_ih[g,256+k] + b_ih[g]      (g < 768)
      hhn[i, g] = Σ_{k<256} z[i,k]·W_hh[g,k] + b_hh[g]
  the reset gate r = σ(gin[q] + hhn[q]), the update gate u = σ(gin[256+q] + hhn[256+q]), the candidate
  n = tanh(gin[512+q] + r·hhn[512+q]) and the new state (1 − u)·n + u·z[i,q].

  The one law needed between the two programs: a sum over 384 = 256 + 128 indices is the sum over the first 256 plus
  the sum over the last 128 (commutativity and associativity of + only, so it holds at the infinities too).
-/
import Idealize.ShloMosaic.PureOps.Ideal
import Idealize.ShloMosaic.PureOps.Ideal.Laws
import Idealize.ShloMosaic.Lib.ValueIdx

noncomputable section

namespace Cert.MsgPass

open Idealize.ShloMosaic Idealize.ShloMosaic.ValueIdx

/-- A matrix, and a row, of extended reals over literal extents. -/
abbrev Mat (r c : Nat) : Type := (⟨2, ![r, c]⟩ : Shape).Idx → EReal
abbrev Row (n : Nat) : Type := (⟨1, ![n]⟩ : Shape).Idx → EReal

/-- The word of `1.0` denotes the extended real 1. -/
theorem one_word : Ideal.ofBits .f32 0x3F800000#32 = 1 := by
  simp [Ideal.ofBits, Ideal.ieee, -EReal.coe_mul]; norm_num

/-- The logistic function spelt with the word of `1.0` in place of 1: 1 / (1 + e^(−a)). -/
theorem logistic_words (a : EReal) :
    Ideal.div (Ideal.ofBits .f32 0x3F800000#32) (Ideal.ofBits .f32 0x3F800000#32 + Ideal.exp (-a)) = Ideal.logistic a := by
  rw [one_word]; rfl

/-! ## The node encoder -/

/-- First layer at node `i`, hidden unit `k`: relu(x[i]·W1[k] + b1[k]). -/
def hid (x : Mat 50000 256) (W1 : Mat 256 256) (b1 : Row 256) (i : Fin 50000) (k : Fin 256) : EReal :=
  max ((∑ l : Fin 256, x (ix2 i l) * W1 (ix2 k l)) + b1 (ix1 k)) (Ideal.ofBits .f32 0x00000000#32)

/-- The message of node `i`, feature `q`: relu(hid[i]·W2[q] + b2[q]). -/
def msg (x : Mat 50000 256) (W1 : Mat 256 256) (b1 : Row 256) (W2 : Mat 128 256) (b2 : Row 128) (i : Fin 50000) (q : Fin 128) : EReal :=
  max ((∑ k : Fin 256, hid x W1 b1 i k * W2 (ix2 q k)) + b2 (ix1 q)) (Ideal.ofBits .f32 0x00000000#32)

/-- The encoder's whole output array. -/
def enc (x : Mat 50000 256) (W1 : Mat 256 256) (b1 : Row 256) (W2 : Mat 128 256) (b2 : Row 128) : Mat 50000 128 :=
  fun j => msg x W1 b1 W2 b2 (j 0) (j 1)

/-! ## The GRU cell -/

/-- Input pre-activation of gate row `g` at node `i`: the [x, y] row against W_ih[g], the contraction split at 256. -/
def gin (x : Mat 50000 256) (y : Mat 50000 128) (Wih : Mat 768 384) (bih : Row 768) (i : Fin 50000) (g : Fin 768) : EReal :=
  ((∑ k : Fin 256, x (ix2 i k) * Wih (ix2 g (⟨k.val, by omega⟩ : Fin 384)))
    + (∑ k : Fin 128, y (ix2 i k) * Wih (ix2 g (⟨256 + k.val, by omega⟩ : Fin 384)))) + bih (ix1 g)

/-- Hidden pre-activation of gate row `g` at node `i`. -/
def hhn (z : Mat 50000 256) (Whh : Mat 768 256) (bhh : Row 768) (i : Fin 50000) (g : Fin 768) : EReal :=
  (∑ k : Fin 256, z (ix2 i k) * Whh (ix2 g k)) + bhh (ix1 g)

/-- The three gate rows of output feature `q`. -/
abbrev rowR (q : Fin 256) : Fin 768 := ⟨q.val, by omega⟩
abbrev rowU (q : Fin 256) : Fin 768 := ⟨256 + q.val, by omega⟩
abbrev rowN (q : Fin 256) : Fin 768 := ⟨512 + q.val, by omega⟩

/-- The new hidden state at node `i`, feature `q`, from the two pre-activations `a` (input) and `h` (hidden) as functions
    of the gate row, and the old state `zq`. -/
def cell (a h : Fin 768 → EReal) (zq : EReal) (q : Fin 256) : EReal :=
  (Ideal.ofBits .f32 0x3F800000#32 - Ideal.logistic (a (rowU q) + h (rowU q)))
      * Ideal.tanh (a (rowN q) + Ideal.logistic (a (rowR q) + h (rowR q)) * h (rowN q))
    + Ideal.logistic (a (rowU q) + h (rowU q)) * zq

/-- The GRU's whole output array. -/
def gru (x : Mat 50000 256) (y : Mat 50000 128) (z : Mat 50000 256) (Wih : Mat 768 384) (bih : Row 768)
    (Whh : Mat 768 256) (bhh : Row 768) : Mat 50000 256 :=
  fun j => cell (gin x y Wih bih (j 0)) (hhn z Whh bhh (j 0)) (z (ix2 (j 0) (j 1))) (j 1)

/-! ## The law: a contraction over 384 = 256 + 128 indices, split -/

theorem sum_split_384 {M : Type*} [AddCommMonoid M] (f : Fin 384 → M) :
    ∑ k : Fin 384, f k = (∑ k : Fin 256, f ⟨k.val, by omega⟩) + ∑ k : Fin 128, f ⟨256 + k.val, by omega⟩ :=
  Fin.sum_univ_add (fun k : Fin (256 + 128) => f k)

end Cert.MsgPass

end
-- ==== Proof.EncodeBody.lean ====
/-
  The encoder's body at an entry of its block.

  A block holds 2000 node rows.  Entry (p, q) of what the body stores is
      relu( Σ_k relu( Σ_l x[p,l]·W1[k,l] + b1[k] ) · W2[q,k] + b2[q] ):
  the two products are read through their transposed weights, each bias is one row broadcast down the block, and the
  changes of float format are the identity on the extended reals.  If the block's rows are rows of the whole feature
  array, that entry is the specification's message at the corresponding node.
-/
import proofs.«123180_j29703993819530_1_alg».proof.Proof.Gen.KernelIdeal.Skeleton
import proofs.«123180_j29703993819530_1_alg».proof.Proof.Products
import proofs.«123180_j29703993819530_1_alg».proof.Proof.Spec
import Idealize.ShloMosaic.Lib.ValueLayout
import Idealize.ShloMosaic.Lib.Pipeline.Value

noncomputable section

namespace Cert.KernelIdeal.EncBody

open Idealize.ShloMosaic Idealize.ShloMosaic.ValueIdx Cert.KernelIdeal Cert.KernelIdeal.Gen Cert.MsgPass

/-- A bias of 256 entries, as one row broadcast over the 2000 rows of a block, read at (p, k). -/
theorem bias256 (b : Vec Ideal S256 .f32) (p : Fin 2000) (k : Fin 256) :
    broadcastTo S2000x256 (shapeCast S1x256 b shapeCasts_S256_S1x256) broadcasts_S1x256_S2000x256 (ix2 p k) = b (ix1 k) :=
  (broadcastTo_1b_ab_apply _ broadcasts_S1x256_S2000x256 p k).trans (shapeCast_a_1a_apply b shapeCasts_S256_S1x256 0 k)

/-- A bias of 128 entries, as one row broadcast over the 2000 rows of a block, read at (p, q). -/
theorem bias128 (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The stored value at entry (p, q) of the block. -/
theorem pay_at (x0 : Vec Ideal S2000x256 .f32) (x1 : Vec Ideal S256x256 .f32) (x2 : Vec Ideal S256 .f32)
    (x3 : Vec Ideal S128x256 .f32) (x4 : Vec Ideal S128 .f32) (p : Fin 2000) (q : Fin 128) :
    k0_pay1 (F := Ideal) x0 x1 x2 x3 x4 (ix2 p q)
      = max ((∑ k : Fin 256, max ((∑ l : Fin 256, x0 (ix2 p l) * x1 (ix2 k l)) + x2 (ix1 k)) (Ideal.ofBits .f32 0x00000000#32)
              * x3 (ix2 q k)) + x4 (ix1 q)) (Ideal.ofBits .f32 0x00000000#32) := by
  unfold k0_pay1
  show max (matmul dot_S2000x256_S256x128_S2000x128_1_0_0_1_n_n none _ _ _ (ix2 p q) + broadcastTo S2000x128 _ _ (ix2 p q)) _ = _
  rw [Prod.encB_apply, bias128]
  refine congrArg (fun s => max (s + x4 (ix1 q)) _) (Finset.sum_congr rfl fun k _ => ?_)
  show max (matmul dot_S2000x256_S256x256_S2000x256_1_0_0_1_n_n none _ _ _ (ix2 p k) + broadcastTo S2000x256 _ _ (ix2 p k)) _
      * transpose S256x128 [1, 0] _ _ (ix2 k q) = _
  rw [Prod.encA_apply, bias256, transpose_ix2_apply]
  refine congrArg (fun s => max (s + x2 (ix1 k)) _ * _) (Finset.sum_congr rfl fun l _ => ?_)
  show x0 (ix2 p l) * transpose S256x256 [1, 0] _ _ (ix2 l k) = _
  rw [transpose_ix2_apply]
  rfl

/-- A block whose rows are rows of the whole arrays stores the specification's messages: entry (p, q) of the block is the
    message of node `r`, feature `q`, when row `p` of the x block is row `r` of x and the weights and biases are whole. -/
theorem block_msg (X0 : Vec Ideal S2000x256 .f32) (X1 : Vec Ideal S256x256 .f32) (X2 : Vec Ideal S256 .f32)
    (X3 : Vec Ideal S128x256 .f32) (X4 : Vec Ideal S128 .f32)
    (x : Mat 50000 256) (W1 : Mat 256 256) (b1 : Row 256) (W2 : Mat 128 256) (b2 : Row 128)
    (p : Fin 2000) (q : Fin 128) (r : Fin 50000)
    (hrow : ∀ l : Fin 256, X0 (ix2 p l) = x (ix2 r l))
    (hW1 : X1 = W1) (hb1 : X2 = b1) (hW2 : X3 = W2) (hb2 : X4 = b2) :
    k0_pay1 (F := Ideal) X0 X1 X2 X3 X4 (ix2 p q) = enc x W1 b1 W2 b2 (ix2 r q) := by
  subst hW1 hb1 hW2 hb2
  rw [pay_at]
  show _ = msg x X1 X2 X3 X4 r q
  unfold msg hid
  refine congrArg (fun s => max (s + X4 (ix1 q)) _) (Finset.sum_congr rfl fun k _ => ?_)
  refine congrArg (fun s => max (s + X2 (ix1 k)) _ * _) (Finset.sum_congr rfl fun l _ => ?_)
  rw [hrow l]

end Cert.KernelIdeal.EncBody

end
-- ==== Proof.EncodeValue.lean ====
/-
  The encoder's output array after its grid.

  The grid has 25 points; point t stages rows 2000·t … 2000·t + 1999 of x, the two weights and two biases whole, and
  writes back rows 2000·t … 2000·t + 1999 of the message array.  What point t writes back is therefore block t of ONE
  whole-array function — the specification's messages of the x, W1, b1, W2, b2 the region finds — and the 25 blocks
  cover the 50000 rows (row r is in block r / 2000), so the array ends holding that function.
-/
import proofs.«123180_j29703993819530_1_alg».proof.Proof.Gen.KernelIdeal.Frame
import proofs.«123180_j29703993819530_1_alg».proof.Proof.EncodeBody

set_option maxRecDepth 16384

noncomputable section

namespace Cert.KernelIdeal.EncValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem z2 : (![0, 0] : Fin 2 → Nat) = fun _ => 0 := funext fun a => by fin_cases a <;> rfl
theorem z1 : (![0] : Fin 1 → Nat) = fun _ => 0 := funext fun a => by fin_cases a <;> rfl

/-- The printed index maps over the 25 points: the x window and the output window sit at block row t, every other
    window at block 0. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the messages of the arrays the region finds. -/
theorem flushed_eq (c : Dev nD) (t : Fin cfg0.N) :
    (dat0 V c).flushed 5 t = ((cfg0.win 5).blk t).view.read (Elt Ideal)
      (enc (V c main_arg0) (V c main_arg4) (V c main_arg5) (V c main_arg6) (V c main_arg7)) := by
  show (cfg0.win 5).cut (grid0.coords t) ((dat0 V c).after 5 t) = _
  rw [after0_5]
  unfold out0_5
  rw [View.canon_unit_zero z2]
  simp only [View.ld_unit_zero (S := S2000x256) z2, View.ld_unit_zero (S := S256x256) z2, View.ld_unit_zero (S := S256) z1,
    View.ld_unit_zero (S := S128x256) z2, View.ld_unit_zero (S := S128) z1]
  obtain ⟨a0, a1, b0, b1, c0, d0, d1, e0, f0, f1⟩ := maps t
  have ht : t.val < 25 := lt_of_lt_of_eq t.isLt N_0
  funext j
  have hj0 : (j 0).val < 2000 := (j 0).isLt
  have hj1 : (j 1).val < 128 := (j 1).isLt
  have hj : j = ix2 (⟨(j 0).val, hj0⟩ : Fin 2000) (⟨(j 1).val, hj1⟩ : Fin 128) := by
    funext a; apply Fin.ext
    match a with
    | ⟨0, _⟩ => rfl
    | ⟨1, _⟩ => rfl
  have hemb : ((cfg0.win 5).blk t).view.emb j
      = ix2 (⟨t.val * 2000 + (j 0).val, by omega⟩ : Fin 50000) (⟨(j 1).val, hj1⟩ : Fin 128) := by
    funext a; apply Fin.ext
    match a with
    | ⟨0, _⟩ => show win0_5.index t (0 : Fin 2) * 2000 + 1 * (j 0).val = t.val * 2000 + (j 0).val; rw [f0]; omega
    | ⟨1, _⟩ => show win0_5.index t (1 : Fin 2) * 128 + 1 * (j 1).val = (j 1).val; rw [f1]; omega
  show k0_pay1 (F := Ideal) (iblk0 V c 0 t) (iblk0 V c 1 t) (iblk0 V c 2 t) (iblk0 V c 3 t) (iblk0 V c 4 t) j
      = enc (V c main_arg0) (V c main_arg4) (V c main_arg5) (V c main_arg6) (V c main_arg7) (((cfg0.win 5).blk t).view.emb j)
  rw [hemb]
  refine (congrArg (k0_pay1 (F := Ideal) (iblk0 V c 0 t) (iblk0 V c 1 t) (iblk0 V c 2 t) (iblk0 V c 3 t) (iblk0 V c 4 t)) hj).trans ?_
  refine EncBody.block_msg (iblk0 V c 0 t) (iblk0 V c 1 t) (iblk0 V c 2 t) (iblk0 V c 3 t) (iblk0 V c 4 t)
    (V c main_arg0) (V c main_arg4) (V c main_arg5) (V c main_arg6) (V c main_arg7)
    (⟨(j 0).val, hj0⟩ : Fin 2000) (⟨(j 1).val, hj1⟩ : Fin 128) (⟨t.val * 2000 + (j 0).val, by omega⟩ : Fin 50000) ?_ ?_ ?_ ?_ ?_
  · intro l
    show V c main_arg0 (((cfg0.win 0).blk t).view.emb (ix2 (⟨(j 0).val, hj0⟩ : Fin 2000) l)) = _
    refine congrArg (V c main_arg0) ?_
    funext a; apply Fin.ext
    match a with
    | ⟨0, _⟩ => show win0_0.index t (0 : Fin 2) * 2000 + 1 * (j 0).val = t.val * 2000 + (j 0).val; rw [a0]; omega
    | ⟨1, _⟩ => show win0_0.index t (1 : Fin 2) * 256 + 1 * l.val = l.val; rw [a1]; omega
  · funext y
    show V c main_arg4 (((cfg0.win 1).blk t).view.emb y) = V c main_arg4 y
    refine congrArg (V c main_arg4) ?_
    funext a; apply Fin.ext
    match a with
    | ⟨0, _⟩ => show win0_1.index t (0 : Fin 2) * 256 + 1 * (y 0).val = (y 0).val; rw [b0]; omega
    | ⟨1, _⟩ => show win0_1.index t (1 : Fin 2) * 256 + 1 * (y 1).val = (y 1).val; rw [b1]; omega
  · funext y
    show V c main_arg5 (((cfg0.win 2).blk t).view.emb y) = V c main_arg5 y
    refine congrArg (V c main_arg5) ?_
    funext a; apply Fin.ext
    match a with
    | ⟨0, _⟩ => show win0_2.index t (0 : Fin 1) * 256 + 1 * (y 0).val = (y 0).val; rw [c0]; omega
  · funext y
    show V c main_arg6 (((cfg0.win 3).blk t).view.emb y) = V c main_arg6 y
    refine congrArg (V c main_arg6) ?_
    funext a; apply Fin.ext
    match a with
    | ⟨0, _⟩ => show win0_3.index t (0 : Fin 2) * 128 + 1 * (y 0).val = (y 0).val; rw [d0]; omega
    | ⟨1, _⟩ => show win0_3.index t (1 : Fin 2) * 256 + 1 * (y 1).val = (y 1).val; rw [d1]; omega
  · funext y
    show V c main_arg7 (((cfg0.win 4).blk t).view.emb y) = V c main_arg7 y
    refine congrArg (V c main_arg7) ?_
    funext a; apply Fin.ext
    match a with
    | ⟨0, _⟩ => show win0_4.index t (0 : Fin 1) * 128 + 1 * (y 0).val = (y 0).val; rw [e0]; omega

/-- An index of the message array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v0).slice (win0_5.rect t)).set ↔ _
  rw [View.set_slice_whole, Rect.mem_set_unit]
  exact Iff.rfl

/-- Every index of the message array is in the block of the point its row falls in. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega) N_0.symm⟩, rfl⟩
  obtain ⟨a0, a1, b0, b1, c0, d0, d1, e0, f0, f1⟩ := maps t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [f0, ht]; omega
  | ⟨1, _⟩ =>
    show win0_5.index t (1 : Fin 2) * 128 ≤ (i 1).val ∧ (i 1).val < win0_5.index t (1 : Fin 2) * 128 + 128
    rw [f1]; omega

/-- The message array after the grid: the specification's messages of the arrays the region finds. -/
theorem final (c : Dev nD) : (dat0 V c).arrAt 5 cfg0.N
    = enc (V c main_arg0) (V c main_arg4) (V c main_arg5) (V c main_arg6) (V c main_arg7) :=
  (dat0 V c).arrAt_eq_of_cover 5 _ (fun t _ => flushed_eq V c t) cover

end Cert.KernelIdeal.EncValue

end
-- ==== Proof.Mean.lean ====
/-
  The mailbox mean, as the host operations both programs apply between the encoder and the GRU: negative source
  indices wrap by 50000, the messages m[src[e]] are gathered along the 800000 edges, summed at dst[e], and divided
  by max(number of edges into the node, 1).  Neither program's proof opens it: both apply this one function to the
  same message array and the same two edge lists.
-/
import proofs.«123180_j29703993819530_1_alg».proof.Proof.Gen.ReferenceIdeal
import Idealize.ShloMosaic.PureOps.Ideal

noncomputable section

namespace Cert.MsgPass

open Idealize.ShloMosaic Cert.ReferenceIdeal Cert.ReferenceIdeal.Gen

/-- The mean of the messages arriving at each node. -/
def mean (mm : (⟨S50000x128, .f32⟩ : BufTy).Contents (Elt Ideal)) (src dst : (⟨S800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 mm
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

end Cert.MsgPass

end
-- ==== Proof.HostStretch.lean ====
/-
  The host operations between the two grids, read at the three buffers the GRU's grid stages: the mailbox mean of
  the message array the encoder left, and the two column slices of W_ih (columns below 256, and from 256).  Each is a
  function of the contents the stretch starts from, whatever they are.
-/
import proofs.«123180_j29703993819530_1_alg».proof.Proof.Gen.KernelIdeal.Frame
import proofs.«123180_j29703993819530_1_alg».proof.Proof.Mean
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.MsgPass

/-- The two programs print the same gather and scatter dimension numbers. -/
theorem gather_same : Cert.KernelIdeal.gather_S50000x128_S800000x1_S800000x128_1_0_n_n_0_1_1128
    = Cert.ReferenceIdeal.gather_S50000x128_S800000x1_S800000x128_1_0_n_n_0_1_1128 := rfl
theorem scatter_rows_same : Cert.KernelIdeal.scatter_S50000x128_S800000x1_S800000x128_1_0_0_1
    = Cert.ReferenceIdeal.scatter_S50000x128_S800000x1_S800000x128_1_0_0_1 := rfl
theorem scatter_count_same : Cert.KernelIdeal.scatter_S50000_S800000x1_S800000_n_0_0_1
    = Cert.ReferenceIdeal.scatter_S50000_S800000x1_S800000_n_0_0_1 := rfl

set_option maxHeartbeats 1000000 in
/-- The mean buffer after the stretch: the mailbox mean of the message array and the two edge lists it started from. -/
theorem mean_of (W : Valuation τ sig (Elt Ideal)) :
    StableHlo.after (hostOps1 (F := Ideal)) W (Proc.devRef .tc main_v19)
      = mean (W (Proc.devRef .tc main_v0)) (W (Proc.devRef .tc main_arg2)) (W (Proc.devRef .tc main_arg3)) := by
  after_results
  unfold mean
  rw [← gather_same, ← scatter_rows_same, ← scatter_count_same]

/-- The first weight slice after the stretch: columns 0 … 255 of W_ih. -/
theorem wx_of (W : Valuation τ sig (Elt Ideal)) :
    StableHlo.after (hostOps1 (F := Ideal)) W (Proc.devRef .tc main_v20)
      = extractStridedSlice S768x256 ![0, 0] (W (Proc.devRef .tc main_arg8)) slices_S768x384_S768x256_0_0 := by
  after_results

/-- The second weight slice after the stretch: columns 256 … 383 of W_ih. -/
theorem wy_of (W : Valuation τ sig (Elt Ideal)) :
    StableHlo.after (hostOps1 (F := Ideal)) W (Proc.devRef .tc main_v21)
      = extractStridedSlice S768x128 ![0, 256] (W (Proc.devRef .tc main_arg8)) slices_S768x384_S768x128_0_256 := by
  after_results

end Cert.KernelIdeal.Stretch

end
-- ==== Proof.GruBody.lean ====
/-
  The GRU body at an entry of its block.

  A block holds 1000 node rows.  The body forms the two pre-activations over all 768 gate rows,
      a[p, g] = Σ_{k<256} x[p,k]·Wx[g,k] + Σ_{k<128} y[p,k]·Wy[g,k] + b_ih[g],   h[p, g] = Σ_{k<256} z[p,k]·W_hh[g,k] + b_hh[g],
  (Wx and Wy the two column slices of W_ih), cuts each into its reset, update and candidate thirds at column offsets
  0, 256 and 512, and stores (1 − u)·tanh(a_n + r·h_n) + u·z with r = σ(a_r + h_r), u = σ(a_u + h_u).  If the block's
  rows are rows of the whole arrays and the two weight slices are the columns of W_ih below and from 256, that entry
  is the specification's cell at the corresponding node.
-/
import proofs.«123180_j29703993819530_1_alg».proof.Proof.Gen.KernelIdeal.Skeleton
import proofs.«123180_j29703993819530_1_alg».proof.Proof.Products
import proofs.«123180_j29703993819530_1_alg».proof.Proof.Spec
import Idealize.ShloMosaic.Lib.ValueLayout
import Idealize.ShloMosaic.Lib.Pipeline.Value

noncomputable section

namespace Cert.KernelIdeal.GruBody

open Idealize.ShloMosaic Idealize.ShloMosaic.ValueIdx Cert.KernelIdeal Cert.KernelIdeal.Gen Cert.MsgPass

/-- A bias of 768 entries, as one row broadcast over the 1000 rows of a block, read at (p, g). -/
theorem bias768 (b : Vec Ideal S768 .f32) (p : Fin 1000) (g : Fin 768) :
    broadcastTo S1000x768 (shapeCast S1x768 b shapeCasts_S768_S1x768) broadcasts_S1x768_S1000x768 (ix2 p g) = b (ix1 g) :=
  (broadcastTo_1b_ab_apply _ broadcasts_S1x768_S1000x768 p g).trans (shapeCast_a_1a_apply b shapeCasts_S768_S1x768 0 g)

/-- The three column thirds of a [1000, 768] array, read at (p, q). -/
theorem third_r (P : FVec Ideal S1000x768 .f32) (p : Fin 1000) (q : Fin 256) :
    extractStridedSlice S1000x256 ![0, 0] P slices_S1000x768_o0_0_S1000x256 (ix2 p q) = P (ix2 p (rowR q)) :=
  slice2_axis1_apply 0 P slices_S1000x768_o0_0_S1000x256 p q (rowR q) (Nat.zero_add _).symm
theorem third_u (P : FVec Ideal S1000x768 .f32) (p : Fin 1000) (q : Fin 256) :
    extractStridedSlice S1000x256 ![0, 256] P slices_S1000x768_o0_256_S1000x256 (ix2 p q) = P (ix2 p (rowU q)) :=
  slice2_axis1_apply 256 P slices_S1000x768_o0_256_S1000x256 p q (rowU q) rfl
theorem third_n (P : FVec Ideal S1000x768 .f32) (p : Fin 1000) (q : Fin 256) :
    extractStridedSlice S1000x256 ![0, 512] P slices_S1000x768_o0_512_S1000x256 (ix2 p q) = P (ix2 p (rowN q)) :=
  slice2_axis1_apply 512 P slices_S1000x768_o0_512_S1000x256 p q (rowN q) rfl

/-- The input pre-activation at (p, g). -/
theorem pre_in_at (v0 : Vec Ideal S1000x256 .f32) (v2 : Vec Ideal S1000x128 .f32) (v6 : Vec Ideal S768x256 .f32)
    (v9 : Vec Ideal S768x128 .f32) (v17 : Vec Ideal S768 .f32) (p : Fin 1000) (g : Fin 768) :
    k1_pay2 (F := Ideal) v0 v2 v6 v9 v17 (ix2 p g)
      = ((∑ k : Fin 256, v0 (ix2 p k) * v6 (ix2 g k)) + (∑ k : Fin 128, v2 (ix2 p k) * v9 (ix2 g k))) + v17 (ix1 g) := by
  unfold k1_pay2
  show (matmul dot_S1000x256_S256x768_S1000x768_1_0_0_1_n_n none _ _ _ (ix2 p g)
      + matmul dot_S1000x128_S128x768_S1000x768_1_0_0_1_n_n none _ _ _ (ix2 p g)) + broadcastTo S1000x768 _ _ (ix2 p g) = _
  rw [Prod.gruX_apply, Prod.gruY_apply, bias768]
  refine congrArg (· + v17 (ix1 g)) (congrArg₂ (· + ·) (Finset.sum_congr rfl fun k _ => ?_) (Finset.sum_congr rfl fun k _ => ?_))
  · show v0 (ix2 p k) * transpose S256x768 [1, 0] _ _ (ix2 k g) = _
    rw [transpose_ix2_apply]
    show v0 (ix2 p k) * shapeCast S768x256 v6 shapeCasts_S768x256_S768x256 (ix2 g k) = _
    rw [shapeCast_self]
  · show shapeCast S1000x128 v2 shapeCasts_S1000x128_S1000x128 (ix2 p k) * transpose S128x768 [1, 0] _ _ (ix2 k g) = _
    rw [transpose_ix2_apply, shapeCast_self]
    show v2 (ix2 p k) * shapeCast S768x128 v9 shapeCasts_S768x128_S768x128 (ix2 g k) = _
    rw [shapeCast_self]

/-- The hidden pre-activation at (p, g). -/
theorem pre_hid_at (v5 : Vec Ideal S1000x256 .f32) (v22 : Vec Ideal S768x256 .f32) (v26 : Vec Ideal S768 .f32)
    (p : Fin 1000) (g : Fin 768) :
    k1_pay3 (F := Ideal) v5 v22 v26 (ix2 p g) = (∑ k : Fin 256, v5 (ix2 p k) * v22 (ix2 g k)) + v26 (ix1 g) := by
  unfold k1_pay3
  show matmul dot_S1000x256_S256x768_S1000x768_1_0_0_1_n_n none _ _ _ (ix2 p g) + broadcastTo S1000x768 _ _ (ix2 p g) = _
  rw [Prod.gruX_apply, bias768]
  refine congrArg (· + v26 (ix1 g)) (Finset.sum_congr rfl fun k _ => ?_)
  show v5 (ix2 p k) * transpose S256x768 [1, 0] _ _ (ix2 k g) = _
  rw [transpose_ix2_apply]
  rfl

/-- The logistic function and tanh of an array, read at an index. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The update gate at (p, q): σ of the two pre-activations' update rows. -/
theorem gate_u_at (v0 : Vec Ideal S1000x256 .f32) (v2 : Vec Ideal S1000x128 .f32) (v5 : Vec Ideal S1000x256 .f32)
    (v6 : Vec Ideal S768x256 .f32) (v9 : Vec Ideal S768x128 .f32) (v17 : Vec Ideal S768 .f32)
    (v22 : Vec Ideal S768x256 .f32) (v26 : Vec Ideal S768 .f32) (p : Fin 1000) (q : Fin 256) :
    k1_pay4 (F := Ideal) v0 v2 v5 v6 v9 v17 v22 v26 (ix2 p q) = Ideal.logistic (k1_pay2 (F := Ideal) v0 v2 v6 v9 v17 (ix2 p (rowU q)) + k1_pay3 (F := Ideal) v5 v22 v26 (ix2 p (rowU q))) := by
  unfold k1_pay4
  rw [logistic_at, addf_apply, third_u, third_u]

/-- The candidate's pre-activation at (p, q): the input's candidate row plus the reset gate times the hidden's. -/
theorem cand_at (v0 : Vec Ideal S1000x256 .f32) (v2 : Vec Ideal S1000x128 .f32) (v5 : Vec Ideal S1000x256 .f32)
    (v6 : Vec Ideal S768x256 .f32) (v9 : Vec Ideal S768x128 .f32) (v17 : Vec Ideal S768 .f32)
    (v22 : Vec Ideal S768x256 .f32) (v26 : Vec Ideal S768 .f32) (p : Fin 1000) (q : Fin 256) :
    k1_pay5 (F := Ideal) v0 v2 v5 v6 v9 v17 v22 v26 (ix2 p q) = k1_pay2 (F := Ideal) v0 v2 v6 v9 v17 (ix2 p (rowN q))
      + Ideal.logistic (k1_pay2 (F := Ideal) v0 v2 v6 v9 v17 (ix2 p (rowR q)) + k1_pay3 (F := Ideal) v5 v22 v26 (ix2 p (rowR q))) * k1_pay3 (F := Ideal) v5 v22 v26 (ix2 p (rowN q)) := by
  unfold k1_pay5
  rw [addf_apply, mulf_apply, logistic_at, addf_apply, third_n, third_n, third_r, third_r]

/-- The stored value at entry (p, q) of the block: the cell of the two pre-activations' rows at p and of z[p, q]. -/
theorem pay_at (v0 : Vec Ideal S1000x256 .f32) (v2 : Vec Ideal S1000x128 .f32) (v5 : Vec Ideal S1000x256 .f32)
    (v6 : Vec Ideal S768x256 .f32) (v9 : Vec Ideal S768x128 .f32) (v17 : Vec Ideal S768 .f32)
    (v22 : Vec Ideal S768x256 .f32) (v26 : Vec Ideal S768 .f32) (p : Fin 1000) (q : Fin 256) :
    k1_pay1 (F := Ideal) v5 (k1_pay4 v0 v2 v5 v6 v9 v17 v22 v26) (k1_pay5 v0 v2 v5 v6 v9 v17 v22 v26) (ix2 p q)
      = cell (fun g => k1_pay2 (F := Ideal) v0 v2 v6 v9 v17 (ix2 p g)) (fun g => k1_pay3 (F := Ideal) v5 v22 v26 (ix2 p g))
          (v5 (ix2 p q)) q := by
  unfold k1_pay1
  rw [addf_apply, mulf_apply, mulf_apply, subf_apply, broadcast_apply, tanh_at, gate_u_at, cand_at]
  rfl

/-- A block whose rows are rows of the whole arrays stores the specification's new states: entry (p, q) of the block is
    the GRU output of node `r`, feature `q`. -/
theorem block_gru (X0 : Vec Ideal S1000x256 .f32) (X1 : Vec Ideal S1000x128 .f32) (X2 : Vec Ideal S1000x256 .f32)
    (X3 : Vec Ideal S768x256 .f32) (X4 : Vec Ideal S768x128 .f32) (X5 : Vec Ideal S768 .f32)
    (X6 : Vec Ideal S768x256 .f32) (X7 : Vec Ideal S768 .f32)
    (x : Mat 50000 256) (y : Mat 50000 128) (z : Mat 50000 256) (Wih : Mat 768 384) (bih : Row 768)
    (Whh : Mat 768 256) (bhh : Row 768) (p : Fin 1000) (q : Fin 256) (r : Fin 50000)
    (hx : ∀ k : Fin 256, X0 (ix2 p k) = x (ix2 r k))
    (hy : ∀ k : Fin 128, X1 (ix2 p k) = y (ix2 r k))
    (hz : ∀ k : Fin 256, X2 (ix2 p k) = z (ix2 r k))
    (hWx : ∀ (g : Fin 768) (k : Fin 256), X3 (ix2 g k) = Wih (ix2 g (⟨k.val, by omega⟩ : Fin 384)))
    (hWy : ∀ (g : Fin 768) (k : Fin 128), X4 (ix2 g k) = Wih (ix2 g (⟨256 + k.val, by omega⟩ : Fin 384)))
    (hbi : X5 = bih) (hWh : X6 = Whh) (hbh : X7 = bhh) :
    k1_pay1 (F := Ideal) X2 (k1_pay4 X0 X1 X2 X3 X4 X5 X6 X7) (k1_pay5 X0 X1 X2 X3 X4 X5 X6 X7) (ix2 p q)
      = gru x y z Wih bih Whh bhh (ix2 r q) := by
  subst hbi hWh hbh
  rw [pay_at]
  show _ = cell (gin x y Wih X5 r) (hhn z X6 X7 r) (z (ix2 r q)) q
  have ha : (fun g => k1_pay2 (F := Ideal) X0 X1 X3 X4 X5 (ix2 p g)) = gin x y Wih X5 r := by
    funext g
    rw [pre_in_at]
    unfold gin
    refine congrArg (· + X5 (ix1 g)) (congrArg₂ (· + ·) (Finset.sum_congr rfl fun k _ => ?_) (Finset.sum_congr rfl fun k _ => ?_))
    · rw [hx k, hWx g k]
    · rw [hy k, hWy g k]
  have hh : (fun g => k1_pay3 (F := Ideal) X2 X6 X7 (ix2 p g)) = hhn z X6 X7 r := by
    funext g
    rw [pre_hid_at]
    unfold hhn
    refine congrArg (· + X7 (ix1 g)) (Finset.sum_congr rfl fun k _ => ?_)
    rw [hz k]
  rw [ha, hh, hz q]

end Cert.KernelIdeal.GruBody

end
-- ==== Proof.GruValue.lean ====
/-
  The GRU's output array after its grid.

  The grid has 50 points; point t stages rows 1000·t … 1000·t + 999 of x, of the mailbox mean and of z, the weights and
  biases whole, and writes back rows 1000·t … 1000·t + 999 of the result.  What point t writes back is block t of ONE
  whole-array function — the specification's GRU of the arrays the region finds, once the two staged weight slices are
  the columns of one W_ih below and from 256 — and the 50 blocks cover the 50000 rows (row r is in block r / 1000).
-/
import proofs.«123180_j29703993819530_1_alg».proof.Proof.Gen.KernelIdeal.Frame
import proofs.«123180_j29703993819530_1_alg».proof.Proof.GruBody

set_option maxRecDepth 16384

noncomputable section

namespace Cert.KernelIdeal.GruValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass

variable (V : (c : Dev nD) → (b : Ref sig .tc) → Buf (Elt Ideal) ((c : Thread nD τ).loc b))

theorem z2 : (![0, 0] : Fin 2 → Nat) = fun _ => 0 := funext fun a => by fin_cases a <;> rfl
theorem z1 : (![0] : Fin 1 → Nat) = fun _ => 0 := funext fun a => by fin_cases a <;> rfl

/-- The printed index maps over the 50 points: the x, mean, z and output windows sit at block row t, every weight and
    bias window at block 0. -/
theorem maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- What point `t` writes back is block `t` of the GRU of the arrays the region finds. -/
theorem flushed_eq (c : Dev nD) (Wih : Mat 768 384)
    (hWx : ∀ (g : Fin 768) (k : Fin 256), V c main_v20 (ix2 g k) = Wih (ix2 g (⟨k.val, by omega⟩ : Fin 384)))
    (hWy : ∀ (g : Fin 768) (k : Fin 128), V c main_v21 (ix2 g k) = Wih (ix2 g (⟨256 + k.val, by omega⟩ : Fin 384)))
    (t : Fin cfg1.N) :
    (dat1 V c).flushed 8 t = ((cfg1.win 8).blk t).view.read (Elt Ideal)
      (gru (V c main_arg0) (V c main_v19) (V c main_arg1) Wih (V c main_arg9) (V c main_arg10) (V c main_arg11)) := by
  show (cfg1.win 8).cut (grid1.coords t) ((dat1 V c).after 8 t) = _
  rw [after1_8]
  unfold out1_8
  rw [View.canon_unit_zero z2]
  simp only [View.ld_unit_zero (S := S1000x256) z2, View.ld_unit_zero (S := S1000x128) z2, View.ld_unit_zero (S := S768x256) z2,
    View.ld_unit_zero (S := S768x128) z2, View.ld_unit_zero (S := S768) z1]
  obtain ⟨a0, a1, b0, b1, c0, c1, d0, d1, e0, e1, f0, g0, g1, h0, o0, o1⟩ := maps t
  have ht : t.val < 50 := lt_of_lt_of_eq t.isLt N_1
  funext j
  have hj0 : (j 0).val < 1000 := (j 0).isLt
  have hj1 : (j 1).val < 256 := (j 1).isLt
  have hj : j = ix2 (⟨(j 0).val, hj0⟩ : Fin 1000) (⟨(j 1).val, hj1⟩ : Fin 256) := by
    funext a; apply Fin.ext
    match a with
    | ⟨0, _⟩ => rfl
    | ⟨1, _⟩ => rfl
  have hemb : ((cfg1.win 8).blk t).view.emb j
      = ix2 (⟨t.val * 1000 + (j 0).val, by omega⟩ : Fin 50000) (⟨(j 1).val, hj1⟩ : Fin 256) := by
    funext a; apply Fin.ext
    match a with
    | ⟨0, _⟩ => show win1_8.index t (0 : Fin 2) * 1000 + 1 * (j 0).val = t.val * 1000 + (j 0).val; rw [o0]; omega
    | ⟨1, _⟩ => show win1_8.index t (1 : Fin 2) * 256 + 1 * (j 1).val = (j 1).val; rw [o1]; omega
  show k1_pay1 (F := Ideal) (iblk1 V c 2 t)
        (k1_pay4 (iblk1 V c 0 t) (iblk1 V c 1 t) (iblk1 V c 2 t) (iblk1 V c 3 t) (iblk1 V c 4 t) (iblk1 V c 5 t) (iblk1 V c 6 t) (iblk1 V c 7 t))
        (k1_pay5 (iblk1 V c 0 t) (iblk1 V c 1 t) (iblk1 V c 2 t) (iblk1 V c 3 t) (iblk1 V c 4 t) (iblk1 V c 5 t) (iblk1 V c 6 t) (iblk1 V c 7 t)) j
      = gru (V c main_arg0) (V c main_v19) (V c main_arg1) Wih (V c main_arg9) (V c main_arg10) (V c main_arg11)
          (((cfg1.win 8).blk t).view.emb j)
  rw [hemb]
  refine (congrArg (k1_pay1 (F := Ideal) (iblk1 V c 2 t)
        (k1_pay4 (iblk1 V c 0 t) (iblk1 V c 1 t) (iblk1 V c 2 t) (iblk1 V c 3 t) (iblk1 V c 4 t) (iblk1 V c 5 t) (iblk1 V c 6 t) (iblk1 V c 7 t))
        (k1_pay5 (iblk1 V c 0 t) (iblk1 V c 1 t) (iblk1 V c 2 t) (iblk1 V c 3 t) (iblk1 V c 4 t) (iblk1 V c 5 t) (iblk1 V c 6 t) (iblk1 V c 7 t))) hj).trans ?_
  refine GruBody.block_gru (iblk1 V c 0 t) (iblk1 V c 1 t) (iblk1 V c 2 t) (iblk1 V c 3 t) (iblk1 V c 4 t) (iblk1 V c 5 t) (iblk1 V c 6 t) (iblk1 V c 7 t)
    (V c main_arg0) (V c main_v19) (V c main_arg1) Wih (V c main_arg9) (V c main_arg10) (V c main_arg11)
    (⟨(j 0).val, hj0⟩ : Fin 1000) (⟨(j 1).val, hj1⟩ : Fin 256) (⟨t.val * 1000 + (j 0).val, by omega⟩ : Fin 50000) ?_ ?_ ?_ ?_ ?_ ?_ ?_ ?_
  · intro k
    show V c main_arg0 (((cfg1.win 0).blk t).view.emb (ix2 (⟨(j 0).val, hj0⟩ : Fin 1000) k)) = _
    refine congrArg (V c main_arg0) ?_
    funext a; apply Fin.ext
    match a with
    | ⟨0, _⟩ => show win1_0.index t (0 : Fin 2) * 1000 + 1 * (j 0).val = t.val * 1000 + (j 0).val; rw [a0]; omega
    | ⟨1, _⟩ => show win1_0.index t (1 : Fin 2) * 256 + 1 * k.val = k.val; rw [a1]; omega
  · intro k
    show V c main_v19 (((cfg1.win 1).blk t).view.emb (ix2 (⟨(j 0).val, hj0⟩ : Fin 1000) k)) = _
    refine congrArg (V c main_v19) ?_
    funext a; apply Fin.ext
    match a with
    | ⟨0, _⟩ => show win1_1.index t (0 : Fin 2) * 1000 + 1 * (j 0).val = t.val * 1000 + (j 0).val; rw [b0]; omega
    | ⟨1, _⟩ => show win1_1.index t (1 : Fin 2) * 128 + 1 * k.val = k.val; rw [b1]; omega
  · intro k
    show V c main_arg1 (((cfg1.win 2).blk t).view.emb (ix2 (⟨(j 0).val, hj0⟩ : Fin 1000) k)) = _
    refine congrArg (V c main_arg1) ?_
    funext a; apply Fin.ext
    match a with
    | ⟨0, _⟩ => show win1_2.index t (0 : Fin 2) * 1000 + 1 * (j 0).val = t.val * 1000 + (j 0).val; rw [c0]; omega
    | ⟨1, _⟩ => show win1_2.index t (1 : Fin 2) * 256 + 1 * k.val = k.val; rw [c1]; omega
  · intro g k
    show V c main_v20 (((cfg1.win 3).blk t).view.emb (ix2 g k)) = _
    refine (congrArg (V c main_v20) ?_).trans (hWx g k)
    funext a; apply Fin.ext
    match a with
    | ⟨0, _⟩ => show win1_3.index t (0 : Fin 2) * 768 + 1 * g.val = g.val; rw [d0]; omega
    | ⟨1, _⟩ => show win1_3.index t (1 : Fin 2) * 256 + 1 * k.val = k.val; rw [d1]; omega
  · intro g k
    show V c main_v21 (((cfg1.win 4).blk t).view.emb (ix2 g k)) = _
    refine (congrArg (V c main_v21) ?_).trans (hWy g k)
    funext a; apply Fin.ext
    match a with
    | ⟨0, _⟩ => show win1_4.index t (0 : Fin 2) * 768 + 1 * g.val = g.val; rw [e0]; omega
    | ⟨1, _⟩ => show win1_4.index t (1 : Fin 2) * 128 + 1 * k.val = k.val; rw [e1]; omega
  · funext y
    show V c main_arg9 (((cfg1.win 5).blk t).view.emb y) = V c main_arg9 y
    refine congrArg (V c main_arg9) ?_
    funext a; apply Fin.ext
    match a with
    | ⟨0, _⟩ => show win1_5.index t (0 : Fin 1) * 768 + 1 * (y 0).val = (y 0).val; rw [f0]; omega
  · funext y
    show V c main_arg10 (((cfg1.win 6).blk t).view.emb y) = V c main_arg10 y
    refine congrArg (V c main_arg10) ?_
    funext a; apply Fin.ext
    match a with
    | ⟨0, _⟩ => show win1_6.index t (0 : Fin 2) * 768 + 1 * (y 0).val = (y 0).val; rw [g0]; omega
    | ⟨1, _⟩ => show win1_6.index t (1 : Fin 2) * 256 + 1 * (y 1).val = (y 1).val; rw [g1]; omega
  · funext y
    show V c main_arg11 (((cfg1.win 7).blk t).view.emb y) = V c main_arg11 y
    refine congrArg (V c main_arg11) ?_
    funext a; apply Fin.ext
    match a with
    | ⟨0, _⟩ => show win1_7.index t (0 : Fin 1) * 768 + 1 * (y 0).val = (y 0).val; rw [h0]; omega

/-- An index of the result array is in point `t`'s block iff each coordinate is in the block's range on its axis. -/
theorem mem_blk (t : Fin cfg1.N) (i : S50000x256.Idx) :
    i ∈ ((cfg1.win 8).blk t).view.set ↔ ∀ a : Fin 2, win1_8.index t a * S1000x256.size a ≤ (i a).val
      ∧ (i a).val < win1_8.index t a * S1000x256.size a + S1000x256.size a := by
  show i ∈ ((View.whole main_v22).slice (win1_8.rect t)).set ↔ _
  rw [View.set_slice_whole, Rect.mem_set_unit]
  exact Iff.rfl

/-- Every index of the result array is in the block of the point its row falls in. -/
theorem cover (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ : ∃ t : Fin cfg1.N, t.val = (i 0).val / 1000 :=
    ⟨⟨(i 0).val / 1000, lt_of_lt_of_eq (by omega) N_1.symm⟩, rfl⟩
  obtain ⟨a0, a1, b0, b1, c0, c1, d0, d1, e0, e1, f0, g0, g1, h0, o0, o1⟩ := maps t
  refine ⟨t, flush1_8 t, ?_⟩
  rw [mem_blk]
  intro a
  match a with
  | ⟨0, _⟩ =>
    show win1_8.index t (0 : Fin 2) * 1000 ≤ (i 0).val ∧ (i 0).val < win1_8.index t (0 : Fin 2) * 1000 + 1000
    rw [o0, ht]; omega
  | ⟨1, _⟩ =>
    show win1_8.index t (1 : Fin 2) * 256 ≤ (i 1).val ∧ (i 1).val < win1_8.index t (1 : Fin 2) * 256 + 256
    rw [o1]; omega

/-- The result array after the grid: the specification's GRU of the arrays the region finds. -/
theorem final (c : Dev nD) (Wih : Mat 768 384)
    (hWx : ∀ (g : Fin 768) (k : Fin 256), V c main_v20 (ix2 g k) = Wih (ix2 g (⟨k.val, by omega⟩ : Fin 384)))
    (hWy : ∀ (g : Fin 768) (k : Fin 128), V c main_v21 (ix2 g k) = Wih (ix2 g (⟨256 + k.val, by omega⟩ : Fin 384))) :
    (dat1 V c).arrAt 8 cfg1.N
      = gru (V c main_arg0) (V c main_v19) (V c main_arg1) Wih (V c main_arg9) (V c main_arg10) (V c main_arg11) :=
  (dat1 V c).arrAt_eq_of_cover 8 _ (fun t _ => flushed_eq V c Wih hWx hWy t) cover

end Cert.KernelIdeal.GruValue

end
-- ==== Proof.KernelValue.lean ====
/-
  The idealized kernel's result as one function of its arguments.

  Reading the last boundary backwards: the result buffer holds what the GRU's grid leaves, the specification's GRU of
  the contents that grid was entered with; those are the arguments x, z, b_ih, W_hh, b_hh as launched (no segment writes
  an argument), the two column slices of the launched W_ih, and the mailbox mean of what the encoder's grid left in the
  message buffer — the specification's messages of the launched x, W1, b1, W2, b2 — along the launched edge lists.
-/
import proofs.«123180_j29703993819530_1_alg».proof.Proof.KernelRun
import proofs.«123180_j29703993819530_1_alg».proof.Proof.EncodeValue
import proofs.«123180_j29703993819530_1_alg».proof.Proof.HostStretch
import proofs.«123180_j29703993819530_1_alg».proof.Proof.GruValue

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.MsgPass

variable (m : (ℓ : Loc nD τ sig) → Buf (Elt Ideal) ℓ) (ρ : Dev nD → PrngReg)

/-! ## What the GRU's grid is entered with -/

theorem entry_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem entry_arg1 (c : Dev nD) : V2 m ρ c main_arg1 = m ((c : Thread nD τ).loc main_arg1) :=
  ((W3_arr m ρ c 2).trans (((dat1 (V2 m ρ) c).arrAt_in 2 rfl _).trans (A_eq1 (V2 m ρ) c 2))).symm.trans (W3_main_arg1 m ρ c)
theorem entry_arg9 (c : Dev nD) : V2 m ρ c main_arg9 = m ((c : Thread nD τ).loc main_arg9) :=
  ((W3_arr m ρ c 5).trans (((dat1 (V2 m ρ) c).arrAt_in 5 rfl _).trans (A_eq1 (V2 m ρ) c 5))).symm.trans (W3_main_arg9 m ρ c)
theorem entry_arg10 (c : Dev nD) : V2 m ρ c main_arg10 = m ((c : Thread nD τ).loc main_arg10) :=
  ((W3_arr m ρ c 6).trans (((dat1 (V2 m ρ) c).arrAt_in 6 rfl _).trans (A_eq1 (V2 m ρ) c 6))).symm.trans (W3_main_arg10 m ρ c)
theorem entry_arg11 (c : Dev nD) : V2 m ρ c main_arg11 = m ((c : Thread nD τ).loc main_arg11) :=
  ((W3_arr m ρ c 7).trans (((dat1 (V2 m ρ) c).arrAt_in 7 rfl _).trans (A_eq1 (V2 m ρ) c 7))).symm.trans (W3_main_arg11 m ρ c)

/-- The mean buffer at the GRU's entry: the mailbox mean of the launched arguments' messages. -/
theorem entry_mean (c : Dev nD) : V2 m ρ c main_v19
    = mean (enc (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)) := by
  have h5 : W1 m ρ c (Proc.devRef .tc main_v0) = (dat0 (V0 m ρ) c).arrAt 5 cfg0.N := W1_arr m ρ c 5
  have h2 : W1 m ρ c (Proc.devRef .tc main_arg2) = m ((c : Thread nD τ).loc main_arg2) := W1_of_ne m ρ c main_arg2 (by decide)
  have h3 : W1 m ρ c (Proc.devRef .tc main_arg3) = m ((c : Thread nD τ).loc main_arg3) := W1_of_ne m ρ c main_arg3 (by decide)
  show StableHlo.after (hostOps1 (F := Ideal)) (W1 m ρ c) (Proc.devRef .tc main_v19) = _
  rw [Stretch.mean_of, h5, h2, h3, EncValue.final (V0 m ρ) c]

/-- The first weight slice at the GRU's entry, entry (g, k): W_ih[g, k]. -/
theorem entry_wx (c : Dev nD) (g : Fin 768) (k : Fin 256) :
    V2 m ρ c main_v20 (ix2 g k) = m ((c : Thread nD τ).loc main_arg8) (ix2 g (⟨k.val, by omega⟩ : Fin 384)) := by
  have h8 : W1 m ρ c (Proc.devRef .tc main_arg8) = m ((c : Thread nD τ).loc main_arg8) := W1_of_ne m ρ c main_arg8 (by decide)
  have e : V2 m ρ c main_v20
      = extractStridedSlice S768x256 ![0, 0] (m ((c : Thread nD τ).loc main_arg8)) slices_S768x384_S768x256_0_0 := by
    show StableHlo.after (hostOps1 (F := Ideal)) (W1 m ρ c) (Proc.devRef .tc main_v20) = _
    rw [Stretch.wx_of, h8]
  rw [e]
  exact ValueIdx.slice2_axis1_apply 0 _ slices_S768x384_S768x256_0_0 g k (⟨k.val, by omega⟩ : Fin 384) (Nat.zero_add _).symm

/-- The second weight slice at the GRU's entry, entry (g, k): W_ih[g, 256 + k]. -/
theorem entry_wy (c : Dev nD) (g : Fin 768) (k : Fin 128) :
    V2 m ρ c main_v21 (ix2 g k) = m ((c : Thread nD τ).loc main_arg8) (ix2 g (⟨256 + k.val, by omega⟩ : Fin 384)) := by
  have h8 : W1 m ρ c (Proc.devRef .tc main_arg8) = m ((c : Thread nD τ).loc main_arg8) := W1_of_ne m ρ c main_arg8 (by decide)
  have e : V2 m ρ c main_v21
      = extractStridedSlice S768x128 ![0, 256] (m ((c : Thread nD τ).loc main_arg8)) slices_S768x384_S768x128_0_256 := by
    show StableHlo.after (hostOps1 (F := Ideal)) (W1 m ρ c) (Proc.devRef .tc main_v21) = _
    rw [Stretch.wy_of, h8]
  rw [e]
  exact ValueIdx.slice2_axis1_apply 256 _ slices_S768x384_S768x128_0_256 g k (⟨256 + k.val, by omega⟩ : Fin 384) rfl

/-! ## The result -/

/-- The result buffer at the last boundary: the specification of the launched arguments. -/
theorem result_eq (c : Dev nD) : W3 m ρ c (Proc.devRef .tc main_v22)
    = gru (m ((c : Thread nD τ).loc main_arg0))
        (mean (enc (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)))
        (m ((c : Thread nD τ).loc main_arg1)) (m ((c : Thread nD τ).loc main_arg8)) (m ((c : Thread nD τ).loc main_arg9))
        (m ((c : Thread nD τ).loc main_arg10)) (m ((c : Thread nD τ).loc main_arg11)) := by
  have h8 : W3 m ρ c (Proc.devRef .tc main_v22) = (dat1 (V2 m ρ) c).arrAt 8 cfg1.N := W3_arr m ρ c 8
  rw [h8, GruValue.final (V2 m ρ) c (m ((c : Thread nD τ).loc main_arg8)) (entry_wx m ρ c) (entry_wy m ρ c),
    entry_arg0, entry_mean, entry_arg1, entry_arg9, entry_arg10, entry_arg11]

/-- Every weakly fair execution of @main terminates, nothing faulting, with the result at the specification of the
    launched arguments, and the arguments unchanged. -/
theorem run : θ_run defs (onTc (τ := τ) (main (F := Ideal))) ⟨m, fun _ => 0, ρ⟩ (fun r => ∀ c : Dev nD,
      r.2.mem ((c.tc : Thread nD τ).loc main_v22) = gru (m ((c : Thread nD τ).loc main_arg0))
        (mean (enc (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg3)))
        (m ((c : Thread nD τ).loc main_arg1)) (m ((c : Thread nD τ).loc main_arg8)) (m ((c : Thread nD τ).loc main_arg9))
        (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (run_result m ρ)

end Cert.KernelIdeal.Whole

end
-- ==== Proof.RefValue.lean ====
/-
  The reference program computes the specification.

  Its run ends with the result at the composition of its host operations; read stage by stage at an index, the
  first two dense layers and their relus are the specification's messages, the gather / scatter-sum / divide stretch
  is the mailbox mean of those messages, and the rest is the GRU cell: the product of the concatenated row [x, y] with
  W_ihᵀ is a sum over 384 contracted indices, which splits at 256 into the x part and the y part, and jax's expansion
  of the logistic function, 1 / (1 + exp(−a)), is the logistic function.
-/
import proofs.«123180_j29703993819530_1_alg».proof.Proof.Gen.ReferenceIdeal.Read
import proofs.«123180_j29703993819530_1_alg».proof.Proof.Spec
import proofs.«123180_j29703993819530_1_alg».proof.Proof.Mean

noncomputable section

namespace Cert.ReferenceIdeal.RefValue

open Idealize.ShloMosaic Idealize.ShloMosaic.ValueIdx Cert.ReferenceIdeal Cert.ReferenceIdeal.Gen Cert.ReferenceIdeal.Read Cert.MsgPass

/-- Two indices of a matrix, or of a row, with equal coordinates are equal. -/
local macro "idx2" : tactic => `(tactic| (funext a; apply Fin.ext; match a with | ⟨0, _⟩ => rfl | ⟨1, _⟩ => rfl))
local macro "idx1" : tactic => `(tactic| (funext a; apply Fin.ext; match a with | ⟨0, _⟩ => rfl))

variable (x0 x1 : Mat 50000 256) (x2 x3 : (⟨S800000, .i32⟩ : BufTy).Contents (Elt Ideal)) (x4 : Mat 256 256) (x5 : Row 256)
  (x6 : Mat 128 256) (x7 : Row 128) (x8 : Mat 768 384) (x9 : Row 768) (x10 : Mat 768 256) (x11 : Row 768)

/-! ## The encoder -/

/-- The first layer after its relu, at node `r`, hidden unit `k`. -/
theorem ref_hid (r : Fin 50000) (k : Fin 256) :
    val_main_v5 (F := Ideal) x0 x4 x5 (ix2 r k) = hid x0 x4 x5 r k := by
  rw [val_main_v5_apply, val_main_v4_apply, val_main_v1_apply, val_main_v3_apply, val_main_v2_apply,
    val_main_call0_v0_apply, val_main_call0_cst_apply]
  unfold hid
  show max ((∑ l : Fin 256, x0 (lidx_main_v1 (ix2 r k) l) * val_main_v0 (F := Ideal) x4 (ridx_main_v1 (ix2 r k) l))
      + x5 (idx_main_v2 (idx_main_v3 (ix2 r k)))) (Ideal.ofBits .f32 0x00000000#32) = _
  have eb : idx_main_v2 (idx_main_v3 (ix2 r k)) = ix1 k := by idx1
  rw [eb]
  refine congrArg (fun s => max (s + x5 (ix1 k)) _) (Finset.sum_congr rfl fun l _ => ?_)
  rw [val_main_v0_apply]
  have e1 : lidx_main_v1 (ix2 r k) l = ix2 r l := by idx2
  have e2 : idx_main_v0 (ridx_main_v1 (ix2 r k) l) = ix2 k l := by idx2
  rw [e1, e2]

/-- The second layer after its relu, at node `r`, feature `q`: the message. -/
theorem ref_msg (r : Fin 50000) (q : Fin 128) :
    val_main_v11 (F := Ideal) x0 x4 x5 x6 x7 (ix2 r q) = msg x0 x4 x5 x6 x7 r q := by
  rw [val_main_v11_apply, val_main_v10_apply, val_main_v7_apply, val_main_v9_apply, val_main_v8_apply,
    val_main_call1_v0_apply, val_main_call1_cst_apply]
  unfold msg
  show max ((∑ k : Fin 256, val_main_v5 (F := Ideal) x0 x4 x5 (lidx_main_v7 (ix2 r q) k) * val_main_v6 (F := Ideal) x6 (ridx_main_v7 (ix2 r q) k))
      + x7 (idx_main_v8 (idx_main_v9 (ix2 r q)))) (Ideal.ofBits .f32 0x00000000#32) = _
  have eb : idx_main_v8 (idx_main_v9 (ix2 r q)) = ix1 q := by idx1
  rw [eb]
  refine congrArg (fun s => max (s + x7 (ix1 q)) _) (Finset.sum_congr rfl fun k _ => ?_)
  rw [val_main_v6_apply]
  have e1 : lidx_main_v7 (ix2 r q) k = ix2 r k := by idx2
  have e2 : idx_main_v6 (ridx_main_v7 (ix2 r q) k) = ix2 q k := by idx2
  rw [e1, e2, ref_hid]

/-- The reference's message array is the specification's. -/
theorem ref_enc : val_main_v11 (F := Ideal) x0 x4 x5 x6 x7 = enc x0 x4 x5 x6 x7 := by
  funext j
  obtain ⟨r, q, rfl⟩ : ∃ (r : Fin 50000) (q : Fin 128), j = ix2 r q := ⟨j 0, j 1, eq_ix2 j⟩
  exact ref_msg x0 x4 x5 x6 x7 r q

/-! ## The mailbox mean -/

/-- The reference's gather / scatter-sum / divide stretch is the mean of its message array. -/
theorem ref_mean : val_main_v30 (F := Ideal) x0 x2 x3 x4 x5 x6 x7 = mean (val_main_v11 (F := Ideal) x0 x4 x5 x6 x7) x2 x3 := rfl

/-! ## The GRU cell -/

/-- The input pre-activation at node `r`, gate row `g`: the contraction over [x, y] split at 256. -/
theorem ref_gin (r : Fin 50000) (g : Fin 768) :
    val_main_v36 (F := Ideal) x0 x2 x3 x4 x5 x6 x7 x8 x9 (ix2 r g) = gin x0 (val_main_v30 (F := Ideal) x0 x2 x3 x4 x5 x6 x7) x8 x9 r g := by
  rw [val_main_v36_apply, val_main_v33_apply, val_main_v35_apply, val_main_v34_apply]
  unfold gin
  show (∑ k : Fin 384, val_main_v31 (F := Ideal) x0 x2 x3 x4 x5 x6 x7 (lidx_main_v33 (ix2 r g) k) * val_main_v32 (F := Ideal) x8 (ridx_main_v33 (ix2 r g) k))
      + x9 (idx_main_v34 (idx_main_v35 (ix2 r g))) = _
  have eb : idx_main_v34 (idx_main_v35 (ix2 r g)) = ix1 g := by idx1
  rw [eb, sum_split_384]
  refine congrArg (· + x9 (ix1 g)) (congrArg₂ (· + ·) (Finset.sum_congr rfl fun k _ => ?_) (Finset.sum_congr rfl fun k _ => ?_))
  · rw [val_main_v32_apply]
    have e2 : idx_main_v32 (ridx_main_v33 (ix2 r g) (⟨k.val, by omega⟩ : Fin 384)) = ix2 g (⟨k.val, by omega⟩ : Fin 384) := by idx2
    rw [e2]
    refine congrArg (· * _) ?_
    unfold val_main_v31
    exact concatenate_pair_apply_left 1 x0 _ concatenates_S50000x256_S50000x128_S50000x384_d1 _ rfl (ix2 r k)
      (fun b => match b with | ⟨0, _⟩ => rfl | ⟨1, _⟩ => rfl)
  · rw [val_main_v32_apply]
    have e2 : idx_main_v32 (ridx_main_v33 (ix2 r g) (⟨256 + k.val, by omega⟩ : Fin 384)) = ix2 g (⟨256 + k.val, by omega⟩ : Fin 384) := by idx2
    rw [e2]
    refine congrArg (· * _) ?_
    unfold val_main_v31
    exact concatenate_pair_apply_right 1 x0 _ concatenates_S50000x256_S50000x128_S50000x384_d1 _ rfl rfl (ix2 r k)
      (fun b hb => match b, hb with | ⟨0, _⟩, _ => rfl | ⟨1, _⟩, hb => absurd rfl hb) (Nat.add_comm _ _)

/-- The hidden pre-activation at node `r`, gate row `g`. -/
theorem ref_hhn (r : Fin 50000) (g : Fin 768) :
    val_main_v41 (F := Ideal) x1 x10 x11 (ix2 r g) = hhn x1 x10 x11 r g := by
  rw [val_main_v41_apply, val_main_v38_apply, val_main_v40_apply, val_main_v39_apply]
  unfold hhn
  show (∑ k : Fin 256, x1 (lidx_main_v38 (ix2 r g) k) * val_main_v37 (F := Ideal) x10 (ridx_main_v38 (ix2 r g) k))
      + x11 (idx_main_v39 (idx_main_v40 (ix2 r g))) = _
  have eb : idx_main_v39 (idx_main_v40 (ix2 r g)) = ix1 g := by idx1
  rw [eb]
  refine congrArg (· + x11 (ix1 g)) (Finset.sum_congr rfl fun k _ => ?_)
  rw [val_main_v37_apply]
  have e1 : lidx_main_v38 (ix2 r g) k = ix2 r k := by idx2
  have e2 : idx_main_v37 (ridx_main_v38 (ix2 r g) k) = ix2 g k := by idx2
  rw [e1, e2]

/-- The result at node `r`, feature `q`: the cell of the two pre-activations' rows and of z[r, q]. -/
theorem ref_cell (r : Fin 50000) (q : Fin 256) :
    val_main_v69 (F := Ideal) x0 x1 x2 x3 x4 x5 x6 x7 x8 x9 x10 x11 (ix2 r q)
      = cell (fun g => val_main_v36 (F := Ideal) x0 x2 x3 x4 x5 x6 x7 x8 x9 (ix2 r g)) (fun g => val_main_v41 (F := Ideal) x1 x10 x11 (ix2 r g))
          (x1 (ix2 r q)) q := by
  rw [val_main_v69_apply,
    val_main_v67_apply,
    val_main_v68_apply,
    val_main_v66_apply,
    val_main_v65_apply,
    val_main_cst_8_apply,
    val_main_v64_apply,
    val_main_v63_apply,
    val_main_v62_apply,
    val_main_v61_apply,
    val_main_v60_apply,
    val_main_cst_7_apply,
    val_main_v59_apply,
    val_main_v58_apply,
    val_main_cst_6_apply,
    val_main_v57_apply,
    val_main_v56_apply,
    val_main_v55_apply,
    val_main_v54_apply,
    val_main_v53_apply,
    val_main_cst_5_apply,
    val_main_v52_apply,
    val_main_v51_apply,
    val_main_cst_4_apply,
    val_main_v50_apply,
    val_main_v49_apply,
    val_main_v48_apply,
    val_main_v47_apply,
    val_main_v46_apply,
    val_main_v45_apply,
    val_main_v44_apply,
    val_main_v43_apply,
    val_main_v42_apply]
  have e42 : idx_main_v42 (ix2 r q) = ix2 r (rowR q) := by idx2
  have e43 : idx_main_v43 (ix2 r q) = ix2 r (rowU q) := by idx2
  have e44 : idx_main_v44 (ix2 r q) = ix2 r (rowN q) := by idx2
  have e45 : idx_main_v45 (ix2 r q) = ix2 r (rowR q) := by idx2
  have e46 : idx_main_v46 (ix2 r q) = ix2 r (rowU q) := by idx2
  have e47 : idx_main_v47 (ix2 r q) = ix2 r (rowN q) := by idx2
  rw [e42, e43, e44, e45, e46, e47]
  unfold cell
  rw [← logistic_words, ← logistic_words]
  rfl

/-- The reference's result array is the specification's GRU of its own mailbox mean. -/
theorem ref_gru : val_main_v69 (F := Ideal) x0 x1 x2 x3 x4 x5 x6 x7 x8 x9 x10 x11 = gru x0 (val_main_v30 (F := Ideal) x0 x2 x3 x4 x5 x6 x7) x1 x8 x9 x10 x11 := by
  funext j
  obtain ⟨r, q, rfl⟩ : ∃ (r : Fin 50000) (q : Fin 256), j = ix2 r q := ⟨j 0, j 1, eq_ix2 j⟩
  rw [ref_cell]
  show _ = cell (gin x0 (val_main_v30 (F := Ideal) x0 x2 x3 x4 x5 x6 x7) x8 x9 r) (hhn x1 x10 x11 r) (x1 (ix2 r q)) q
  rw [show (fun g => val_main_v36 (F := Ideal) x0 x2 x3 x4 x5 x6 x7 x8 x9 (ix2 r g)) = gin x0 (val_main_v30 (F := Ideal) x0 x2 x3 x4 x5 x6 x7) x8 x9 r
        from funext fun g => ref_gin x0 x2 x3 x4 x5 x6 x7 x8 x9 r g,
      show (fun g => val_main_v41 (F := Ideal) x1 x10 x11 (ix2 r g)) = hhn x1 x10 x11 r from funext fun g => ref_hhn x1 x10 x11 r g]

/-- The reference's result: the GRU update from [x, mean of the encoded messages]. -/
theorem ref_result :
    val_main_v69 (F := Ideal) x0 x1 x2 x3 x4 x5 x6 x7 x8 x9 x10 x11 = gru x0 (mean (enc x0 x4 x5 x6 x7) x2 x3) x1 x8 x9 x10 x11 := by
  rw [ref_gru, ref_mean, ref_enc]

end Cert.ReferenceIdeal.RefValue

end
-- ==== Proof.lean ====
/-
  The certificate of a message-passing layer: a Pallas kernel program against its jnp reference, equal on the extended
  reals.

  Both programs encode each of 50000 nodes by a two-layer perceptron with relus, average the encoded messages
  arriving along 800000 edges, and update the node's hidden state by a GRU cell fed [x, mean].  The kernel program
  runs the encoder and the GRU as two grids of row blocks (2000 and 1000 rows a block) with the gather / scatter-sum
  stretch between them, and multiplies x and the mean by the two column slices of W_ih separately; the reference
  multiplies their concatenation by W_ih whole.  At the ideal values the two agree because a sum over 384 contracted
  indices is the sum over the first 256 plus the sum over the last 128, a product into a zero accumulator is the
  product, changes of float format are the identity, and the kernel's logistic is the reference's 1 / (1 + exp(−a)).
  Nothing here needs the inputs finite: only commutativity and associativity of + are used.

  The three frames are the generated ones (the reference's is its generated run with the result dropped); the ideal
  pass rewrote nothing, so the kernel is its own idealization.
-/
import proofs.«123180_j29703993819530_1_alg».proof.Defs
import proofs.«123180_j29703993819530_1_alg».proof.Proof.Gen.Kernel
import proofs.«123180_j29703993819530_1_alg».proof.Proof.Gen.Kernel.Skeleton
import proofs.«123180_j29703993819530_1_alg».proof.Proof.Gen.Kernel.Launch
import proofs.«123180_j29703993819530_1_alg».proof.Proof.Gen.Kernel.Points
import proofs.«123180_j29703993819530_1_alg».proof.Proof.Gen.Kernel.Frame
import proofs.«123180_j29703993819530_1_alg».proof.Proof.Gen.KernelIdeal
import proofs.«123180_j29703993819530_1_alg».proof.Proof.Gen.KernelIdeal.Skeleton
import proofs.«123180_j29703993819530_1_alg».proof.Proof.Gen.KernelIdeal.Launch
import proofs.«123180_j29703993819530_1_alg».proof.Proof.Gen.KernelIdeal.Points
import proofs.«123180_j29703993819530_1_alg».proof.Proof.Gen.KernelIdeal.Frame
import proofs.«123180_j29703993819530_1_alg».proof.Proof.Gen.ReferenceIdeal
import proofs.«123180_j29703993819530_1_alg».proof.Proof.Gen.ReferenceIdeal.Run
import proofs.«123180_j29703993819530_1_alg».proof.Proof.Gen.ReferenceIdeal.Read
import proofs.«123180_j29703993819530_1_alg».proof.Proof.Gen.Pre_finite_inputs
import proofs.«123180_j29703993819530_1_alg».proof.Proof.KernelValue
import proofs.«123180_j29703993819530_1_alg».proof.Proof.RefValue
import Idealize.ShloMosaic.Adequacy
import Idealize.ShloMosaic.Init

noncomputable section

namespace Cert.Proof

open Idealize.ShloMosaic Idealize.SL.Sem Cert.MsgPass

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the twelve arguments, both idealized programs end with the specification of those
    arguments in their result: the kernel by its whole-program value, the reference by its run read stage by stage. -/
theorem algebraic : Cert.algebraic_KernelIdeal_ReferenceIdeal := by
  intro m ρ m' ρ' _ hagree
  refine ⟨_, _, (θ_run Cert.KernelIdeal.defs _ _).mono (fun r h c => ⟨(h c).1, (h c).1, (h c).2⟩)
    (Cert.KernelIdeal.Whole.run m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  all_goals
    rw [Cert.ReferenceIdeal.Read.val_main_v69_eq, Cert.ReferenceIdeal.RefValue.ref_result,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
